-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S16x64 .f32) (main_arg7 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S3200000 32) (main_arg2 : IVec S3200000 32) (main_arg3 : FVec F S3200000 .f32) (main_arg4 : FVec F S512x16 .f32) (main_arg5 : FVec F S16 .f32) (main_arg6 : FVec F S16x64 .f32) (main_arg7 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg4
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000x16 : Shape := ⟨2, ![100000, 16]⟩
abbrev S2000x512 : Shape := ⟨2, ![2000, 512]⟩
abbrev S2000x16 : Shape := ⟨2, ![2000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x64 : Shape := ⟨2, ![100000, 64]⟩
abbrev S2000x64 : Shape := ⟨2, ![2000, 64]⟩
abbrev S3200000x64 : Shape := ⟨2, ![3200000, 64]⟩
abbrev S1x64 : Shape := ⟨2, ![1, 64]⟩

abbrev nBuf : Space → Nat
  | .hbm => 45
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x16, .f32⟩
  | .hbm, ⟨5, _⟩ => ⟨S16, .f32⟩
  | .hbm, ⟨6, _⟩ => ⟨S16x64, .f32⟩
  | .hbm, ⟨7, _⟩ => ⟨S64, .f32⟩
  | .hbm, ⟨8, _⟩ => ⟨S100000x16, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x64, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S3200000x64, .f32⟩
  | .hbm, ⟨38, _⟩ => ⟨S3200000x64, .f32⟩
  | .hbm, ⟨39, _⟩ => ⟨S_, .f32⟩
  | .hbm, ⟨40, _⟩ => ⟨S100000x64, .f32⟩
  | .hbm, ⟨41, _⟩ => ⟨S3200000x1, .i32⟩
  | .hbm, ⟨42, _⟩ => ⟨S100000x64, .f32⟩
  | .hbm, ⟨43, _⟩ => ⟨S1x64, .f32⟩
  | .hbm, ⟨44, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x64_S2000x64_1_0_0_1_n_n_wf : DotDims.WF S2000x16 S16x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000x16 : Shape := ⟨2, ![100000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x64 : Shape := ⟨2, ![100000, 64]⟩
abbrev S3200000x64 : Shape := ⟨2, ![3200000, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x16, .f32⟩
  | .hbm, ⟨5, _⟩ => ⟨S16, .f32⟩
  | .hbm, ⟨6, _⟩ => ⟨S16x64, .f32⟩
  | .hbm, ⟨7, _⟩ => ⟨S64, .f32⟩
  | .hbm, ⟨8, _⟩ => ⟨S100000x16, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x64, .f32⟩
  | .hbm, ⟨32, _⟩ => ⟨S3200000x1, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S3200000x64, .f32⟩
  | .hbm, ⟨43, _⟩ => ⟨S3200000x64, .f32⟩
  | .hbm, ⟨44, _⟩ => ⟨S_, .f32⟩
  | .hbm, ⟨45, _⟩ => ⟨S100000x64, .f32⟩
  | .hbm, ⟨46, _⟩ => ⟨S3200000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x64_S100000x64_1_0_0_1_n_n_wf : DotDims.WF S100000x16 S16x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Aggregate.lean ====
/-
  The sparse aggregation both programs apply between their dense stages, carried as ONE function.

  For edge lists `rows`, `cols` (a negative column counted from the end) and edge weights `vals`, the aggregation of a
  dense array `d` is the array whose row `r` is the sum, over the edges `e` with `rows e = r`, of
  `vals e · d (cols e)`: a gather of rows, a product with the weights, a scatter-add into zeros.  The kernel's program and
  the reference spell it with the same host operations; it is never opened here, only shown to be the same function in
  both spellings.
-/
import proofs.«134429_j2396591751687_1_alg».proof.Proof.Gen.KernelIdeal
import proofs.«134429_j2396591751687_1_alg».proof.Proof.Gen.ReferenceIdeal
import Idealize.ShloMosaic.PureOps.Ideal

noncomputable section

namespace Cert.Aggregate

open Idealize.ShloMosaic

section K
open Cert.KernelIdeal Cert.KernelIdeal.Facts₀

/-- The aggregation of a 16-column array, in the kernel program's spelling. -/
def aggK16 (rows cols : (⟨S3200000, .i32⟩ : BufTy).Contents (Elt Ideal)) (vals : (⟨S3200000, .f32⟩ : BufTy).Contents (Elt Ideal))
    (d : (⟨S100000x16, .f32⟩ : BufTy).Contents (Elt Ideal)) : (⟨S100000x16, .f32⟩ : BufTy).Contents (Elt Ideal) :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 rows)
    (mulf (broadcastInDim S3200000x16 ![0, 1] bcast_S3200000x1_S3200000x16_0_1 (broadcastInDim S3200000x1 ![0] bcast_S3200000_S3200000x1_0 vals))
      (Host.gather gather_S100000x16_S3200000x1_S3200000x16_1_0_n_n_0_1_116 d
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

/-- The aggregation of a 64-column array, in the kernel program's spelling. -/
def aggK64 (rows cols : (⟨S3200000, .i32⟩ : BufTy).Contents (Elt Ideal)) (vals : (⟨S3200000, .f32⟩ : BufTy).Contents (Elt Ideal))
    (d : (⟨S100000x64, .f32⟩ : BufTy).Contents (Elt Ideal)) : (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S100000x64_S3200000x1_S3200000x64_1_0_n_n_0_1_164 d
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

end K

section R
open Cert.ReferenceIdeal Cert.ReferenceIdeal.Facts₀

/-- The aggregation of a 16-column array, in the reference's spelling. -/
def aggR16 (rows cols : (⟨S3200000, .i32⟩ : BufTy).Contents (Elt Ideal)) (vals : (⟨S3200000, .f32⟩ : BufTy).Contents (Elt Ideal))
    (d : (⟨S100000x16, .f32⟩ : BufTy).Contents (Elt Ideal)) : (⟨S100000x16, .f32⟩ : BufTy).Contents (Elt Ideal) :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 rows)
    (mulf (broadcastInDim S3200000x16 ![0, 1] bcast_S3200000x1_S3200000x16_0_1 (broadcastInDim S3200000x1 ![0] bcast_S3200000_S3200000x1_0 vals))
      (Host.gather gather_S100000x16_S3200000x1_S3200000x16_1_0_n_n_0_1_116 d
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

/-- The aggregation of a 64-column array, in the reference's spelling. -/
def aggR64 (rows cols : (⟨S3200000, .i32⟩ : BufTy).Contents (Elt Ideal)) (vals : (⟨S3200000, .f32⟩ : BufTy).Contents (Elt Ideal))
    (d : (⟨S100000x64, .f32⟩ : BufTy).Contents (Elt Ideal)) : (⟨S100000x64, .f32⟩ : BufTy).Contents (Elt Ideal) :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (Host.gather gather_S100000x64_S3200000x1_S3200000x64_1_0_n_n_0_1_164 d
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

end R

/-- The two spellings are one function: the shapes are the same literals and the dimension records have the same fields. -/
theorem aggK16_eq_aggR16 : aggK16 = aggR16 := rfl

/-- The same for the 64-column aggregation. -/
theorem aggK64_eq_aggR64 : aggK64 = aggR64 := rfl

end Cert.Aggregate

end
-- ==== Proof.KernelFold.lean ====
/-
  The idealized kernel program, run from the launch to the return, with its result named; and what each of its three
  dense stages finds in the arrays it reads.

  The program is three tiled stages separated by two stretches of whole-array operations.  The buffer contents after
  each of the five segments form a chain  W0 (the launch) → W1 → W2 → W3 → W4 → W5 (the return):  a tiled stage rewrites
  only the arrays of its own windows, at what its write-backs leave; a stretch of whole-array operations rewrites only the
  buffers its operations produce.  Three kinds of fact are read off this chain.

    * The run: every execution terminates, the result buffer ends at W5's value there, and the eight arguments end as
      they were launched.
    * The last array of each stage is what that stage's write-backs leave.
    * What a stage reads.  The first stage reads two arguments.  Between the stages the program aggregates the previous
      stage's result over the edge lists (a gather of rows, a product with the edge weights, a scatter-add into zeros) and
      recasts a bias vector of length k as a 1 × k block; since no stage and no whole-array operation ever writes an
      argument, each argument met on the way is still the launched one.
-/
import proofs.«134429_j2396591751687_1_alg».proof.Proof.Gen.KernelIdeal.Frame
import proofs.«134429_j2396591751687_1_alg».proof.Proof.Aggregate
import Idealize.ShloMosaic.Lib.StableHlo.Run
import Idealize.ShloMosaic.Lib.ValueIdx
import Idealize.ShloMosaic.Lib.ValueLayout

noncomputable section

namespace Cert.KernelIdeal.Fold

open Cert.KernelIdeal Cert.KernelIdeal.Gen Cert.Aggregate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The last array of each stage -/

/-- The result buffer at the return is what the third stage's write-backs leave in its last array. -/
theorem out_arr (c : Dev nD) : W5 m ρ c (Proc.devRef .tc main_v30) = (dat2 (V4 m ρ) c).arrAt 2 cfg2.N := W5_arr m ρ c 2

/-- The second stage's result, after that stage, is what its write-backs leave in its last array. -/
theorem mid_arr (c : Dev nD) : W3 m ρ c (Proc.devRef .tc main_v15) = (dat1 (V2 m ρ) c).arrAt 3 cfg1.N := W3_arr m ρ c 3

/-- The first stage's result, after that stage, is what its write-backs leave in its last array. -/
theorem first_arr (c : Dev nD) : W1 m ρ c (Proc.devRef .tc main_v0) = (dat0 (V0 m ρ) c).arrAt 2 cfg0.N := W1_arr m ρ c 2

/-! ## What the first stage reads: two arguments, as launched -/

theorem in0_x (c : Dev nD) : V0 m ρ c main_arg0 = m ((c.tc : Thread nD τ).loc main_arg0) := rfl

theorem in0_w (c : Dev nD) : V0 m ρ c main_arg4 = m ((c.tc : Thread nD τ).loc main_arg4) := rfl

/-! ## The two stretches of whole-array operations leave every buffer they do not produce -/

/-- The buffers the first stretch produces. -/
def produced1 : List (Ref sig .tc) :=
  [main_v1, main_c, main_v2, main_v3, main_c_0, main_v4, main_v5, main_v6, main_v7, main_v8, main_v9, main_v10, main_cst,
    main_v11, main_v12, main_v13, main_v14]

/-- The buffers the second stretch produces. -/
def produced2 : List (Ref sig .tc) :=
  [main_v16, main_c_1, main_v17, main_v18, main_c_2, main_v19, main_v20, main_v21, main_v22, main_v23, main_v24, main_v25,
    main_cst_3, main_v26, main_v27, main_v28, main_v29]

/-- A buffer that is none of the first stretch's products holds after the stretch what it held before. -/
theorem kept1 (V : Valuation τ sig (Elt Ideal)) (b : Ref sig .tc) (hb : ∀ r ∈ produced1, b ≠ r) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-- The same for the second stretch. -/
theorem kept2 (V : Valuation τ sig (Elt Ideal)) (b : Ref sig .tc) (hb : ∀ r ∈ produced2, b ≠ r) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-! ## The arguments met after the first stage, and after the second, are the launched ones

The first stage's windows lie over the first and fifth arguments and its own result; the second stage's over the first
stretch's two products, the seventh argument and its own result.  An argument that is no window of a stage is passed
through by it. -/

theorem W1_rows (c : Dev nD) : W1 m ρ c (Proc.devRef .tc main_arg1) = m ((c.tc : Thread nD τ).loc main_arg1) :=
  W1_of_ne m ρ c main_arg1 (by decide)
theorem W1_cols (c : Dev nD) : W1 m ρ c (Proc.devRef .tc main_arg2) = m ((c.tc : Thread nD τ).loc main_arg2) :=
  W1_of_ne m ρ c main_arg2 (by decide)
theorem W1_vals (c : Dev nD) : W1 m ρ c (Proc.devRef .tc main_arg3) = m ((c.tc : Thread nD τ).loc main_arg3) :=
  W1_of_ne m ρ c main_arg3 (by decide)
theorem W1_bias (c : Dev nD) : W1 m ρ c (Proc.devRef .tc main_arg5) = m ((c.tc : Thread nD τ).loc main_arg5) :=
  W1_of_ne m ρ c main_arg5 (by decide)
theorem W1_weights (c : Dev nD) : W1 m ρ c (Proc.devRef .tc main_arg6) = m ((c.tc : Thread nD τ).loc main_arg6) :=
  W1_of_ne m ρ c main_arg6 (by decide)

theorem W3_rows (c : Dev nD) : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := kept1 _ main_arg1 (by decide)
    _ = m ((c.tc : Thread nD τ).loc main_arg1) := W1_rows m ρ c
theorem W3_cols (c : Dev nD) : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := kept1 _ main_arg2 (by decide)
    _ = m ((c.tc : Thread nD τ).loc main_arg2) := W1_cols m ρ c
theorem W3_vals (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := kept1 _ main_arg3 (by decide)
    _ = m ((c.tc : Thread nD τ).loc main_arg3) := W1_vals m ρ c
theorem W3_bias (c : Dev nD) : W3 m ρ c (Proc.devRef .tc main_arg7) = m ((c.tc : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := kept1 _ main_arg7 (by decide)
    _ = m ((c.tc : Thread nD τ).loc main_arg7) := W1_of_ne m ρ c main_arg7 (by decide)

/-! ## What the second stage reads -/

/-- Its first array: the aggregation of the first stage's result over the launched edge lists. -/
theorem in1_g (c : Dev nD) :
    V2 m ρ c main_v13 = aggK16 (m ((c.tc : Thread nD τ).loc main_arg1)) (m ((c.tc : Thread nD τ).loc main_arg2))
      (m ((c.tc : Thread nD τ).loc main_arg3)) (W1 m ρ c (Proc.devRef .tc main_v0)) := by
  show StableHlo.after hostOps1 (W1 m ρ c) (Proc.devRef .tc main_v13) = _
  after_results
  rw [W1_rows, W1_cols, W1_vals]
  unfold aggK16
  rfl

/-- Its second array: the launched bias vector of length 16 recast as a 1 × 16 block, entry by entry. -/
theorem in1_b (c : Dev nD) (q : Fin 16) :
    (V2 m ρ c main_v14 : S1x16.Idx → EReal) (ix2 0 q) = (m ((c.tc : Thread nD τ).loc main_arg5) : S16.Idx → EReal) (ix1 q) := by
  have e : (V2 m ρ c main_v14 : S1x16.Idx → EReal)
      = fun i => shapeCast S1x16 (m ((c.tc : Thread nD τ).loc main_arg5) : S16.Idx → EReal) shapeCasts_S16_S1x16 i := by
    show StableHlo.after hostOps1 (W1 m ρ c) (Proc.devRef .tc main_v14) = _
    after_results
    rw [W1_bias]
    rfl
  rw [e]
  exact shapeCast_a_1a_apply _ _ 0 q

/-- Its third array: the launched weights. -/
theorem in1_w (c : Dev nD) : V2 m ρ c main_arg6 = m ((c.tc : Thread nD τ).loc main_arg6) :=
  (kept1 (W1 m ρ c) main_arg6 (by decide)).trans (W1_weights m ρ c)

/-! ## What the third stage reads -/

/-- Its first array: the aggregation of the second stage's result over the launched edge lists. -/
theorem in2_g (c : Dev nD) :
    V4 m ρ c main_v28 = aggK64 (m ((c.tc : Thread nD τ).loc main_arg1)) (m ((c.tc : Thread nD τ).loc main_arg2))
      (m ((c.tc : Thread nD τ).loc main_arg3)) (W3 m ρ c (Proc.devRef .tc main_v15)) := by
  show StableHlo.after hostOps2 (W3 m ρ c) (Proc.devRef .tc main_v28) = _
  after_results
  rw [W3_rows, W3_cols, W3_vals]
  unfold aggK64
  rfl

/-- Its second array: the launched bias vector of length 64 recast as a 1 × 64 block, entry by entry. -/
theorem in2_b (c : Dev nD) (q : Fin 64) :
    (V4 m ρ c main_v29 : S1x64.Idx → EReal) (ix2 0 q) = (m ((c.tc : Thread nD τ).loc main_arg7) : S64.Idx → EReal) (ix1 q) := by
  have e : (V4 m ρ c main_v29 : S1x64.Idx → EReal)
      = fun i => shapeCast S1x64 (m ((c.tc : Thread nD τ).loc main_arg7) : S64.Idx → EReal) shapeCasts_S64_S1x64 i := by
    show StableHlo.after hostOps2 (W3 m ρ c) (Proc.devRef .tc main_v29) = _
    after_results
    rw [W3_bias]
    rfl
  rw [e]
  exact shapeCast_a_1a_apply _ _ 0 q

/-! ## The run -/

set_option backward.isDefEq.respectTransparency.types false in
/-- From any launch memory with zero counters every weakly fair execution of the program terminates without fault; at the
    end the result buffer holds the last link of the chain of contents, read at that buffer, and each of the eight
    arguments holds what it was launched with.  The five segments are run in order over the thread state "every unscoped
    buffer at the current link of the chain"; the final state is read against the last link. -/
theorem run_fold : θ_run (defs (F := Ideal)) (onTc (τ := τ) (main (F := Ideal))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Fold

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Payloads.lean ====
/-
  What each kernel body computes, read at one entry of its output block.

  The three bodies, at the ideal instance (a change of float format is the identity):
    * the first multiplies a block of 2000 rows of `x` by the whole of `W₁`: entry `(p, j)` is `∑ q, x (p, q) · W₁ (q, j)`;
    * the second adds the one-row bias block along the columns, clamps below at zero and multiplies by the whole of
      `W₂`: entry `(p, j)` is `∑ q, max (g (p, q) + b (0, q)) 0 · W₂ (q, j)`;
    * the third adds the one-row bias block and applies the logistic function: entry `(p, j)` is
      `logistic (g (p, j) + b (0, j))`.
  Each is stated over variables of the blocks' literal types.
-/
import proofs.«134429_j2396591751687_1_alg».proof.Proof.Gen.KernelIdeal.Skeleton
import proofs.«134429_j2396591751687_1_alg».proof.Proof.LibPlainDot
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The first body: a block of rows times the weights. -/
theorem product_block (x : Vec Ideal S2000x512 .f32) (w : Vec Ideal S512x16 .f32) (p : Fin 2000) (j : Fin 16) :
    k0_pay1 x w (ix2 p j) = ∑ q : Fin 512, x (ix2 p q) * w (ix2 q j) := by
  unfold k0_pay1
  exact Cert.PlainDot.matmul_zero_ix2 _ rfl none _ _ p j

/-- The second body: bias along the columns, the rectifier, then the product with the weights. -/
theorem hidden_block (g : Vec Ideal S2000x16 .f32) (b : Vec Ideal S1x16 .f32) (w : Vec Ideal S16x64 .f32) (p : Fin 2000) (j : Fin 64) :
    k1_pay1 g b w (ix2 p j) = ∑ q : Fin 16, max (g (ix2 p q) + b (ix2 (0 : Fin 1) q)) (Ideal.ofBits .f32 0x00000000#32) * w (ix2 q j) := by
  unfold k1_pay1
  refine (Cert.PlainDot.matmul_zero_ix2 _ rfl none _ _ p j).trans ?_
  refine Finset.sum_congr rfl fun q _ => ?_
  refine congrArg (fun z => z * w (ix2 q j)) ?_
  show max (shapeCast S2000x16 g shapeCasts_S2000x16_S2000x16 (ix2 p q)
      + broadcastTo S2000x16 (shapeCast S1x16 b shapeCasts_S1x16_S1x16) broadcasts_S1x16_S2000x16 (ix2 p q)) _ = _
  rw [shapeCast_self, shapeCast_self, broadcastTo_1b_ab_apply]
  rfl

/-- The third body: bias along the columns, then the logistic function. -/
theorem output_block (g : Vec Ideal S2000x64 .f32) (b : Vec Ideal S1x64 .f32) (p : Fin 2000) (j : Fin 64) :
    k2_pay1 g b (ix2 p j) = Ideal.logistic (g (ix2 p j) + b (ix2 (0 : Fin 1) j)) := by
  unfold k2_pay1
  show Ideal.logistic (shapeCast S2000x64 g shapeCasts_S2000x64_S2000x64 (ix2 p j)
      + broadcastTo S2000x64 (shapeCast S1x64 b shapeCasts_S1x64_S1x64) broadcasts_S1x64_S2000x64 (ix2 p j)) = _
  rw [shapeCast_self, shapeCast_self, broadcastTo_1b_ab_apply]

end Cert.KernelIdeal.Payload

end
-- ==== Proof.Stages.lean ====
/-
  The three dense stages of the two-layer graph network, each as one function of whole arrays, index by index, on the
  extended reals.

  With `A` the sparse aggregation (carried elsewhere as an opaque function), the network's result is
  `output (A (hidden (A (product x W₁)) b₁ W₂)) b₂`:
    * `product x w`      — entry `(r, j)` is `∑ q, x (r, q) · w (q, j)`;
    * `hidden g b w`     — entry `(r, j)` is `∑ q, max (g (r, q) + b q) 0 · w (q, j)`: bias, rectifier, then the product;
    * `output g b`       — entry `(r, j)` is the logistic function of `g (r, j) + b j`.
  The bias is a function of the column coordinate, so that a one-row block and a vector both fit.  The zero of the
  rectifier is kept as the word both programs print.
-/
import Idealize.ShloMosaic.Lib.ValueIdx
import Idealize.ShloMosaic.PureOps.Ideal

noncomputable section

namespace Cert.Stages

open Idealize.ShloMosaic Idealize.ShloMosaic.ValueIdx

variable {n k c : Nat}

/-- The plain matrix product: entry `(r, j)` is the sum over `q` of `x (r, q) · w (q, j)`. -/
def product (x : FVec Ideal ⟨2, ![n, k]⟩ .f32) (w : FVec Ideal ⟨2, ![k, c]⟩ .f32) : FVec Ideal ⟨2, ![n, c]⟩ .f32 :=
  fun i => ∑ q : Fin k, x (ix2 (i 0) q) * w (ix2 q (i 1))

/-- The hidden layer: add the bias along the columns, clamp below at zero, multiply by the weights. -/
def hidden (g : FVec Ideal ⟨2, ![n, k]⟩ .f32) (b : Fin k → EReal) (w : FVec Ideal ⟨2, ![k, c]⟩ .f32) : FVec Ideal ⟨2, ![n, c]⟩ .f32 :=
  fun i => ∑ q : Fin k, max (g (ix2 (i 0) q) + b q) (Ideal.ofBits .f32 0x00000000#32) * w (ix2 q (i 1))

/-- The output layer: add the bias along the columns, apply the logistic function. -/
def output (g : FVec Ideal ⟨2, ![n, c]⟩ .f32) (b : Fin c → EReal) : FVec Ideal ⟨2, ![n, c]⟩ .f32 :=
  fun i => Ideal.logistic (g i + b (i 1))

theorem product_apply (x : FVec Ideal ⟨2, ![n, k]⟩ .f32) (w : FVec Ideal ⟨2, ![k, c]⟩ .f32) (r : Fin n) (j : Fin c) :
    product x w (ix2 r j) = ∑ q : Fin k, x (ix2 r q) * w (ix2 q j) := rfl

theorem hidden_apply (g : FVec Ideal ⟨2, ![n, k]⟩ .f32) (b : Fin k → EReal) (w : FVec Ideal ⟨2, ![k, c]⟩ .f32) (r : Fin n) (j : Fin c) :
    hidden g b w (ix2 r j) = ∑ q : Fin k, max (g (ix2 r q) + b q) (Ideal.ofBits .f32 0x00000000#32) * w (ix2 q j) := rfl

theorem output_apply (g : FVec Ideal ⟨2, ![n, c]⟩ .f32) (b : Fin c → EReal) (r : Fin n) (j : Fin c) :
    output g b (ix2 r j) = Ideal.logistic (g (ix2 r j) + b j) := rfl

end Cert.Stages

end
-- ==== Proof.FirstArray.lean ====
/-
  The first region's output array as one function of the arrays it finds.

  The grid has 50 points; point `t` stages rows `2000 t … 2000 t + 1999` of `x`, the whole of `W₁`, and writes back
  rows `2000 t … 2000 t + 1999` of the output.  Entry `(p, j)` of what it writes is `∑ q, x (2000 t + p, q) · W₁ (q, j)`,
  which is entry `(2000 t + p, j)` of the plain product; the 50 blocks of rows tile the array, so the array ends
  holding the product.
-/
import proofs.«134429_j2396591751687_1_alg».proof.Proof.Gen.KernelIdeal.Frame
import proofs.«134429_j2396591751687_1_alg».proof.Proof.Payloads
import proofs.«134429_j2396591751687_1_alg».proof.Proof.Stages
import Idealize.ShloMosaic.Lib.Pipeline.Value

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the row blocks of `x` and of the output move with the point, `W₁` stays. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem onto0 : ∀ q : Fin 50, ∃ t : Fin cfg0.N, win0_2.index t (0 : Fin 2) = q.val ∧ win0_2.index t (1 : Fin 2) = 0 :=
  (by decide +kernel : ∀ q : Fin 50, ∃ t : Fin grid0.N, win0_2.index t (0 : Fin 2) = q.val ∧ win0_2.index t (1 : Fin 2) = 0)

theorem point0_lt (t : Fin cfg0.N) : t.val < 50 := lt_of_lt_of_eq t.isLt N_0

/-- One entry of a point's block, from where the point's input blocks sit in the arrays: if row `p` of the block of `x` is
    row `R` of the array `A`, and the block of `W₁` is the array `B`, entry `(p, j)` of the body's result is entry
    `(R, j)` of the product. -/
theorem product_point (x : Vec Ideal S2000x512 .f32) (w : Vec Ideal S512x16 .f32)
    (A : FVec Ideal S100000x512 .f32) (B : FVec Ideal S512x16 .f32) (R : Fin 100000) (p : Fin 2000) (j : Fin 16)
    (hx : ∀ q : Fin 512, x (ix2 p q) = A (ix2 R q)) (hw : ∀ q : Fin 512, w (ix2 q j) = B (ix2 q j)) :
    k0_pay1 x w (ix2 p j) = Stages.product A B (ix2 R j) :=
  (Payload.product_block x w p j).trans (Finset.sum_congr rfl fun q _ => by rw [hx q, hw q])

/-- What point `t` writes back is block `t` of the product of the arrays the region finds. -/
theorem flushed0 (c : Dev nD) (t : Fin cfg0.N) :
    (dat0 V c).flushed 2 t = ((cfg0.win 2).blk t).view.read (Elt Ideal) (Stages.product (V c main_arg0) (V c main_arg4)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x16) origin2]
  obtain ⟨e0, e1, e2, e3, e4, e5⟩ := maps0 t
  have ht := point0_lt t
  funext (y : S2000x16.Idx)
  obtain ⟨p, j, rfl⟩ : ∃ (p : Fin 2000) (j : Fin 16), y = ix2 p j := ⟨y 0, y 1, eq_ix2 y⟩
  have hp := p.isLt
  have hj := j.isLt
  have hout : ((cfg0.win 2).blk t).view.emb (ix2 p j) = (ix2 (⟨t.val * 2000 + p.val, by omega⟩ : Fin 100000) j : S100000x16.Idx) := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * j.val = j.val; omega
  have hx : ∀ q : Fin 512, ((cfg0.win 0).blk t).view.emb (ix2 p q) = (ix2 (⟨t.val * 2000 + p.val, by omega⟩ : Fin 100000) q : S100000x512.Idx) := by
    intro q
    have hq := q.isLt
    funext a; apply Fin.ext
    match a with
    | ⟨0, _⟩ => show win0_0.index t (0 : Fin 2) * 2000 + 1 * p.val = t.val * 2000 + p.val; omega
    | ⟨1, _⟩ => show win0_0.index t (1 : Fin 2) * 512 + 1 * q.val = q.val; omega
  have hw : ∀ q : Fin 512, ((cfg0.win 1).blk t).view.emb (ix2 q j) = (ix2 q j : S512x16.Idx) := by
    intro q
    have hq := q.isLt
    funext a; apply Fin.ext
    match a with
    | ⟨0, _⟩ => show win0_1.index t (0 : Fin 2) * 512 + 1 * q.val = q.val; omega
    | ⟨1, _⟩ => show win0_1.index t (1 : Fin 2) * 16 + 1 * j.val = j.val; omega
  show k0_pay1 (iblk0 V c 0 t) (iblk0 V c 1 t) (ix2 p j) = Stages.product (V c main_arg0) (V c main_arg4) (((cfg0.win 2).blk t).view.emb (ix2 p j))
  rw [hout]
  refine product_point (iblk0 V c 0 t) (iblk0 V c 1 t) (V c main_arg0) (V c main_arg4) _ p j (fun q => ?_) (fun q => ?_)
  · show V c main_arg0 (((cfg0.win 0).blk t).view.emb (ix2 p q)) = _
    exact congrArg (V c main_arg0) (hx q)
  · show V c main_arg4 (((cfg0.win 1).blk t).view.emb (ix2 q j)) = _
    exact congrArg (V c main_arg4) (hw q)

/-- An index of the output array is in point `t`'s block iff each coordinate is in the block's range. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v0).slice (win0_2.rect t)).set ↔ _
  rw [View.set_slice_whole, Rect.mem_set_unit]
  exact Iff.rfl

/-- The 50 blocks of rows cover the output array: row `r` is in the block of point `r / 2000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, q0, q1⟩ := onto0 ⟨(i 0).val / 2000, by omega⟩
  have q0' : win0_2.index t (0 : Fin 2) = (i 0).val / 2000 := q0
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the region its output array is the product of the two arrays it found. -/
theorem first_array (c : Dev nD) :
    (dat0 V c).arrAt 2 cfg0.N = Stages.product (V c main_arg0) (V c main_arg4) :=
  (dat0 V c).arrAt_eq_of_cover 2 (Stages.product (V c main_arg0) (V c main_arg4)) (fun t _ => flushed0 V c t) cover0

end Cert.KernelIdeal.Arrays

end
-- ==== Proof.HiddenArray.lean ====
/-
  The second region's output array as one function of the arrays it finds.

  Point `t` of the 50 stages rows `2000 t … 2000 t + 1999` of the aggregated array `g`, the one-row bias block, the
  whole of `W₂`, and writes back the same rows of the output.  Entry `(p, j)` of what it writes is
  `∑ q, max (g (2000 t + p, q) + b (0, q)) 0 · W₂ (q, j)`: entry `(2000 t + p, j)` of the hidden layer.  The blocks of
  rows tile the array.
-/
import proofs.«134429_j2396591751687_1_alg».proof.Proof.Gen.KernelIdeal.Frame
import proofs.«134429_j2396591751687_1_alg».proof.Proof.Payloads
import proofs.«134429_j2396591751687_1_alg».proof.Proof.Stages
import Idealize.ShloMosaic.Lib.Pipeline.Value

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The index maps over the grid: the row blocks of `g` and of the output move with the point; the bias and `W₂` stay. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of rows is some point's. -/
theorem onto1 : ∀ q : Fin 50, ∃ t : Fin cfg1.N, win1_3.index t (0 : Fin 2) = q.val ∧ win1_3.index t (1 : Fin 2) = 0 :=
  (by decide +kernel : ∀ q : Fin 50, ∃ t : Fin grid1.N, win1_3.index t (0 : Fin 2) = q.val ∧ win1_3.index t (1 : Fin 2) = 0)

theorem point1_lt (t : Fin cfg1.N) : t.val < 50 := lt_of_lt_of_eq t.isLt N_1

/-- The bias the region finds, as a function of the column. -/
abbrev bias1 (c : Dev nD) : Fin 16 → EReal := fun q => (V c main_v14 : S1x16.Idx → EReal) (ix2 (0 : Fin 1) q)

/-- One entry of a point's block, from where the point's input blocks sit in the arrays: if row `p` of the block of `g` is
    row `R` of the array `A`, the bias block's row is the function `β` of the column, and the block of `W₂` is the array
    `B`, entry `(p, j)` of the body's result is entry `(R, j)` of the hidden layer. -/
theorem hidden_point (g : Vec Ideal S2000x16 .f32) (b : Vec Ideal S1x16 .f32) (w : Vec Ideal S16x64 .f32)
    (A : FVec Ideal S100000x16 .f32) (β : Fin 16 → EReal) (B : FVec Ideal S16x64 .f32) (R : Fin 100000) (p : Fin 2000) (j : Fin 64)
    (hg : ∀ q : Fin 16, g (ix2 p q) = A (ix2 R q)) (hb : ∀ q : Fin 16, b (ix2 (0 : Fin 1) q) = β q)
    (hw : ∀ q : Fin 16, w (ix2 q j) = B (ix2 q j)) :
    k1_pay1 g b w (ix2 p j) = Stages.hidden A β B (ix2 R j) :=
  (Payload.hidden_block g b w p j).trans (Finset.sum_congr rfl fun q _ => by rw [hg q, hb q, hw q])

/-- What point `t` writes back is block `t` of the hidden layer of the arrays the region finds. -/
theorem flushed1 (c : Dev nD) (t : Fin cfg1.N) :
    (dat1 V c).flushed 3 t = ((cfg1.win 3).blk t).view.read (Elt Ideal) (Stages.hidden (V c main_v13) (bias1 V c) (V c main_arg6)) := by
  show (cfg1.win 3).cut (grid1.coords t) ((dat1 V c).after 3 t) = _
  rw [after1_3]
  unfold out1_3
  rw [View.canon_unit_zero origin2']
  simp only [View.ld_unit_zero (S := S2000x16) origin2', View.ld_unit_zero (S := S1x16) origin2', View.ld_unit_zero (S := S16x64) origin2']
  obtain ⟨e0, e1, e2, e3, e4, e5, e6, e7⟩ := maps1 t
  have ht := point1_lt t
  funext (y : S2000x64.Idx)
  obtain ⟨p, j, rfl⟩ : ∃ (p : Fin 2000) (j : Fin 64), y = ix2 p j := ⟨y 0, y 1, eq_ix2 y⟩
  have hp := p.isLt
  have hj := j.isLt
  have hout : ((cfg1.win 3).blk t).view.emb (ix2 p j) = (ix2 (⟨t.val * 2000 + p.val, by omega⟩ : Fin 100000) j : S100000x64.Idx) := by
    funext a; apply Fin.ext
    match a with
    | ⟨0, _⟩ => show win1_3.index t (0 : Fin 2) * 2000 + 1 * p.val = t.val * 2000 + p.val; omega
    | ⟨1, _⟩ => show win1_3.index t (1 : Fin 2) * 64 + 1 * j.val = j.val; omega
  have hg : ∀ q : Fin 16, ((cfg1.win 0).blk t).view.emb (ix2 p q) = (ix2 (⟨t.val * 2000 + p.val, by omega⟩ : Fin 100000) q : S100000x16.Idx) := by
    intro q
    have hq := q.isLt
    funext a; apply Fin.ext
    match a with
    | ⟨0, _⟩ => show win1_0.index t (0 : Fin 2) * 2000 + 1 * p.val = t.val * 2000 + p.val; omega
    | ⟨1, _⟩ => show win1_0.index t (1 : Fin 2) * 16 + 1 * q.val = q.val; omega
  have hb : ∀ q : Fin 16, ((cfg1.win 1).blk t).view.emb (ix2 (0 : Fin 1) q) = (ix2 (0 : Fin 1) q : S1x16.Idx) := by
    intro q
    have hq := q.isLt
    funext a; apply Fin.ext
    match a with
    | ⟨0, _⟩ => show win1_1.index t (0 : Fin 2) * 1 + 1 * 0 = 0; omega
    | ⟨1, _⟩ => show win1_1.index t (1 : Fin 2) * 16 + 1 * q.val = q.val; omega
  have hw : ∀ q : Fin 16, ((cfg1.win 2).blk t).view.emb (ix2 q j) = (ix2 q j : S16x64.Idx) := by
    intro q
    have hq := q.isLt
    funext a; apply Fin.ext
    match a with
    | ⟨0, _⟩ => show win1_2.index t (0 : Fin 2) * 16 + 1 * q.val = q.val; omega
    | ⟨1, _⟩ => show win1_2.index t (1 : Fin 2) * 64 + 1 * j.val = j.val; omega
  show k1_pay1 (iblk1 V c 0 t) (iblk1 V c 1 t) (iblk1 V c 2 t) (ix2 p j)
    = Stages.hidden (V c main_v13) (bias1 V c) (V c main_arg6) (((cfg1.win 3).blk t).view.emb (ix2 p j))
  rw [hout]
  refine hidden_point (iblk1 V c 0 t) (iblk1 V c 1 t) (iblk1 V c 2 t) (V c main_v13) (bias1 V c) (V c main_arg6) _ p j
    (fun q => ?_) (fun q => ?_) (fun q => ?_)
  · show V c main_v13 (((cfg1.win 0).blk t).view.emb (ix2 p q)) = _
    exact congrArg (V c main_v13) (hg q)
  · show V c main_v14 (((cfg1.win 1).blk t).view.emb (ix2 (0 : Fin 1) q)) = _
    exact congrArg (V c main_v14) (hb q)
  · show V c main_arg6 (((cfg1.win 2).blk t).view.emb (ix2 q j)) = _
    exact congrArg (V c main_arg6) (hw q)

/-- An index of the output array is in point `t`'s block iff each coordinate is in the block's range. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v15).slice (win1_3.rect t)).set ↔ _
  rw [View.set_slice_whole, Rect.mem_set_unit]
  exact Iff.rfl

/-- The 50 blocks of rows cover the output array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, q0, q1⟩ := onto1 ⟨(i 0).val / 2000, by omega⟩
  have q0' : win1_3.index t (0 : Fin 2) = (i 0).val / 2000 := q0
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the region its output array is the hidden layer of the arrays it found. -/
theorem hidden_array (c : Dev nD) :
    (dat1 V c).arrAt 3 cfg1.N = Stages.hidden (V c main_v13) (bias1 V c) (V c main_arg6) :=
  (dat1 V c).arrAt_eq_of_cover 3 (Stages.hidden (V c main_v13) (bias1 V c) (V c main_arg6)) (fun t _ => flushed1 V c t) cover1

end Cert.KernelIdeal.Arrays

end
-- ==== Proof.OutputArray.lean ====
/-
  The third region's output array as one function of the arrays it finds.

  Point `t` of the 50 stages rows `2000 t … 2000 t + 1999` of the aggregated array `g` and the one-row bias block, and
  writes back the same rows of the output.  Entry `(p, j)` of what it writes is `logistic (g (2000 t + p, j) + b (0, j))`:
  entry `(2000 t + p, j)` of the output layer.  The blocks of rows tile the array.
-/
import proofs.«134429_j2396591751687_1_alg».proof.Proof.Gen.KernelIdeal.Frame
import proofs.«134429_j2396591751687_1_alg».proof.Proof.Payloads
import proofs.«134429_j2396591751687_1_alg».proof.Proof.Stages
import Idealize.ShloMosaic.Lib.Pipeline.Value

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2'' : (![0, 0] : Fin 2 → Nat) = fun _ => 0 := funext fun a => by fin_cases a <;> rfl

/-- The index maps over the grid: the row blocks of `g` and of the output move with the point; the bias stays. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem onto2 : ∀ q : Fin 50, ∃ t : Fin cfg2.N, win2_2.index t (0 : Fin 2) = q.val ∧ win2_2.index t (1 : Fin 2) = 0 :=
  (by decide +kernel : ∀ q : Fin 50, ∃ t : Fin grid2.N, win2_2.index t (0 : Fin 2) = q.val ∧ win2_2.index t (1 : Fin 2) = 0)

theorem point2_lt (t : Fin cfg2.N) : t.val < 50 := lt_of_lt_of_eq t.isLt N_2

/-- The bias the region finds, as a function of the column. -/
abbrev bias2 (c : Dev nD) : Fin 64 → EReal := fun q => (V c main_v29 : S1x64.Idx → EReal) (ix2 (0 : Fin 1) q)

/-- One entry of a point's block, from where the point's input blocks sit in the arrays: if entry `(p, j)` of the block of
    `g` is entry `(R, j)` of the array `A` and the bias block's row is the function `β` of the column, entry `(p, j)` of the
    body's result is entry `(R, j)` of the output layer. -/
theorem output_point (g : Vec Ideal S2000x64 .f32) (b : Vec Ideal S1x64 .f32)
    (A : FVec Ideal S100000x64 .f32) (β : Fin 64 → EReal) (R : Fin 100000) (p : Fin 2000) (j : Fin 64)
    (hg : g (ix2 p j) = A (ix2 R j)) (hb : b (ix2 (0 : Fin 1) j) = β j) :
    k2_pay1 g b (ix2 p j) = Stages.output A β (ix2 R j) :=
  (Payload.output_block g b p j).trans (by rw [hg, hb]; rfl)

/-- What point `t` writes back is block `t` of the output layer of the arrays the region finds. -/
theorem flushed2 (c : Dev nD) (t : Fin cfg2.N) :
    (dat2 V c).flushed 2 t = ((cfg2.win 2).blk t).view.read (Elt Ideal) (Stages.output (V c main_v28) (bias2 V c)) := by
  show (cfg2.win 2).cut (grid2.coords t) ((dat2 V c).after 2 t) = _
  rw [after2_2]
  unfold out2_2
  rw [View.canon_unit_zero origin2'']
  simp only [View.ld_unit_zero (S := S2000x64) origin2'', View.ld_unit_zero (S := S1x64) origin2'']
  obtain ⟨e0, e1, e2, e3, e4, e5⟩ := maps2 t
  have ht := point2_lt t
  funext (y : S2000x64.Idx)
  obtain ⟨p, j, rfl⟩ : ∃ (p : Fin 2000) (j : Fin 64), y = ix2 p j := ⟨y 0, y 1, eq_ix2 y⟩
  have hp := p.isLt
  have hj := j.isLt
  have hout : ((cfg2.win 2).blk t).view.emb (ix2 p j) = (ix2 (⟨t.val * 2000 + p.val, by omega⟩ : Fin 100000) j : S100000x64.Idx) := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * j.val = j.val; omega
  have hg : ((cfg2.win 0).blk t).view.emb (ix2 p j) = (ix2 (⟨t.val * 2000 + p.val, by omega⟩ : Fin 100000) j : S100000x64.Idx) := by
    funext a; apply Fin.ext
    match a with
    | ⟨0, _⟩ => show win2_0.index t (0 : Fin 2) * 2000 + 1 * p.val = t.val * 2000 + p.val; omega
    | ⟨1, _⟩ => show win2_0.index t (1 : Fin 2) * 64 + 1 * j.val = j.val; omega
  have hb : ((cfg2.win 1).blk t).view.emb (ix2 (0 : Fin 1) j) = (ix2 (0 : Fin 1) j : S1x64.Idx) := by
    funext a; apply Fin.ext
    match a with
    | ⟨0, _⟩ => show win2_1.index t (0 : Fin 2) * 1 + 1 * 0 = 0; omega
    | ⟨1, _⟩ => show win2_1.index t (1 : Fin 2) * 64 + 1 * j.val = j.val; omega
  show k2_pay1 (iblk2 V c 0 t) (iblk2 V c 1 t) (ix2 p j)
    = Stages.output (V c main_v28) (bias2 V c) (((cfg2.win 2).blk t).view.emb (ix2 p j))
  rw [hout]
  refine output_point (iblk2 V c 0 t) (iblk2 V c 1 t) (V c main_v28) (bias2 V c) _ p j ?_ ?_
  · show V c main_v28 (((cfg2.win 0).blk t).view.emb (ix2 p j)) = _
    exact congrArg (V c main_v28) hg
  · show V c main_v29 (((cfg2.win 1).blk t).view.emb (ix2 (0 : Fin 1) j)) = _
    exact congrArg (V c main_v29) hb

/-- An index of the output array is in point `t`'s block iff each coordinate is in the block's range. -/
theorem mem_blk2 (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v30).slice (win2_2.rect t)).set ↔ _
  rw [View.set_slice_whole, Rect.mem_set_unit]
  exact Iff.rfl

/-- The 50 blocks of rows cover the output array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := onto2 ⟨(i 0).val / 2000, by omega⟩
  have q0' : win2_2.index t (0 : Fin 2) = (i 0).val / 2000 := q0
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region its output array is the output layer of the arrays it found. -/
theorem output_array (c : Dev nD) :
    (dat2 V c).arrAt 2 cfg2.N = Stages.output (V c main_v28) (bias2 V c) :=
  (dat2 V c).arrAt_eq_of_cover 2 (Stages.output (V c main_v28) (bias2 V c)) (fun t _ => flushed2 V c t) cover2

end Cert.KernelIdeal.Arrays

end
-- ==== Proof.Network.lean ====
/-
  The idealized kernel program's result as the composition of its stages.

  After the run the result buffer holds what the third stage's write-backs leave: the output layer of the array the third
  stage found, which is the aggregation of the second stage's array, which is the hidden layer of the array the second
  stage found, which is the aggregation of the first stage's array, which is the product of the launched `x` and `W₁`.
  Each bias reaches its stage as a one-row block whose entry `(0, q)` is the launched vector's entry `q`; every other
  argument met on the way is the launched one.  So the result is
  `output (A (hidden (A (product x W₁)) b₁ W₂)) b₂` of the launch memory.
-/
import proofs.«134429_j2396591751687_1_alg».proof.Proof.KernelFold
import proofs.«134429_j2396591751687_1_alg».proof.Proof.FirstArray
import proofs.«134429_j2396591751687_1_alg».proof.Proof.HiddenArray
import proofs.«134429_j2396591751687_1_alg».proof.Proof.OutputArray

noncomputable section

namespace Cert.KernelIdeal.Network

open Cert.KernelIdeal Cert.KernelIdeal.Gen Cert.Aggregate Cert.Stages
open Idealize.ShloMosaic Idealize.ShloMosaic.TcCoe Idealize.SL.Sem Idealize.ShloMosaic.ValueIdx

variable (m : (ℓ : Loc nD τ sig) → Buf (Elt Ideal) ℓ) (ρ : Dev nD → PrngReg)

/-- The network's result as a function of the launch memory on core `c`. -/
def result (c : Dev nD) : FVec Ideal ⟨2, ![100000, 64]⟩ .f32 :=
  output (aggK64 (m ((c.tc : Thread nD τ).loc main_arg1)) (m ((c.tc : Thread nD τ).loc main_arg2)) (m ((c.tc : Thread nD τ).loc main_arg3))
      (hidden (aggK16 (m ((c.tc : Thread nD τ).loc main_arg1)) (m ((c.tc : Thread nD τ).loc main_arg2)) (m ((c.tc : Thread nD τ).loc main_arg3))
          (product (m ((c.tc : Thread nD τ).loc main_arg0)) (m ((c.tc : Thread nD τ).loc main_arg4))))
        (fun q => (m ((c.tc : Thread nD τ).loc main_arg5) : S16.Idx → EReal) (ix1 q)) (m ((c.tc : Thread nD τ).loc main_arg6))))
    (fun q => (m ((c.tc : Thread nD τ).loc main_arg7) : S64.Idx → EReal) (ix1 q))

/-- The first stage's array after that stage: the product of the launched `x` and `W₁`. -/
theorem first_stage (c : Dev nD) :
    W1 m ρ c (Proc.devRef .tc main_v0) = product (m ((c.tc : Thread nD τ).loc main_arg0)) (m ((c.tc : Thread nD τ).loc main_arg4)) :=
  (Fold.first_arr m ρ c).trans (Arrays.first_array (V0 m ρ) c)

/-- The bias block the second stage finds is the launched vector, column by column. -/
theorem bias1_eq (c : Dev nD) :
    Arrays.bias1 (V2 m ρ) c = fun q => (m ((c.tc : Thread nD τ).loc main_arg5) : S16.Idx → EReal) (ix1 q) :=
  funext fun q => Fold.in1_b m ρ c q

/-- The bias block the third stage finds is the launched vector, column by column. -/
theorem bias2_eq (c : Dev nD) :
    Arrays.bias2 (V4 m ρ) c = fun q => (m ((c.tc : Thread nD τ).loc main_arg7) : S64.Idx → EReal) (ix1 q) :=
  funext fun q => Fold.in2_b m ρ c q

/-- The second stage's array after that stage: the hidden layer of the aggregated product. -/
theorem second_stage (c : Dev nD) :
    W3 m ρ c (Proc.devRef .tc main_v15)
      = hidden (aggK16 (m ((c.tc : Thread nD τ).loc main_arg1)) (m ((c.tc : Thread nD τ).loc main_arg2)) (m ((c.tc : Thread nD τ).loc main_arg3))
          (product (m ((c.tc : Thread nD τ).loc main_arg0)) (m ((c.tc : Thread nD τ).loc main_arg4))))
        (fun q => (m ((c.tc : Thread nD τ).loc main_arg5) : S16.Idx → EReal) (ix1 q)) (m ((c.tc : Thread nD τ).loc main_arg6)) := by
  refine ((Fold.mid_arr m ρ c).trans (Arrays.hidden_array (V2 m ρ) c)).trans ?_
  rw [bias1_eq, Fold.in1_g, Fold.in1_w, first_stage]

/-- The result buffer at the return is the network's result of the launch memory. -/
theorem result_eq (c : Dev nD) : W5 m ρ c (Proc.devRef .tc main_v30) = result m c := by
  refine ((Fold.out_arr m ρ c).trans (Arrays.output_array (V4 m ρ) c)).trans ?_
  rw [bias2_eq, Fold.in2_g, second_stage]
  rfl

/-- Every weakly fair execution of the idealized kernel program terminates without fault, its result buffer at the
    network's result of the launch memory and its arguments as launched. -/
theorem run : θ_run (defs (F := Ideal)) (onTc (τ := τ) (main (F := Ideal))) ⟨m, fun _ => 0, ρ⟩ (fun r => ∀ c : Dev nD,
      r.2.mem ((c.tc : Thread nD τ).loc main_v30) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (Fold.run_fold m ρ)

end Cert.KernelIdeal.Network

end
-- ==== Proof.ReferenceLayers.lean ====
/-
  The idealized reference program's run, with its result stated layer by layer.

  The reference computes, on the extended reals, a two-layer graph network: a matrix product, a sparse aggregation, a
  bias and rectifier followed by a second matrix product, a second aggregation, and a bias followed by the logistic
  function spelled as `1 / (1 + exp (-z))`.  Here each dense piece of the program's composed term is shown to be the
  corresponding whole-array stage (`product`, `hidden`, `output`), index by index, and the two sparse pieces are
  recognised as the aggregation carried as one function.  The run's result is then the composition
  `output (A (hidden (A (product x W₁)) b₁ W₂)) b₂`.
-/
import proofs.«134429_j2396591751687_1_alg».proof.Proof.Gen.ReferenceIdeal.Run
import proofs.«134429_j2396591751687_1_alg».proof.Proof.Aggregate
import proofs.«134429_j2396591751687_1_alg».proof.Proof.Stages
import proofs.«134429_j2396591751687_1_alg».proof.Proof.LibPlainDot
import Idealize.ShloMosaic.Lib.Pipeline.Value
import Idealize.ShloMosaic.Lib.ValueIdx
import Idealize.ShloMosaic.Lib.IdealHost

noncomputable section

namespace Cert.ReferenceIdeal.Layers

open Cert.ReferenceIdeal Cert.ReferenceIdeal.Facts₀ Cert.Aggregate Cert.Stages Idealize.ShloMosaic Idealize.ShloMosaic.TcCoe
  Idealize.SL.Sem Idealize.ShloMosaic.ValueIdx

/-! ## Broadcasts read at an entry -/

/-- A vector of 16 entries, made a one-row block and then repeated down 100000 rows, reads at `(r, q)` the vector's
    entry `q`: the row coordinate is dropped, the column coordinate kept. -/
theorem bias16_apply (b : FVec Ideal S16 .f32) (r : Fin 100000) (q : Fin 16) :
    broadcastInDim S100000x16 ![0, 1] bcast_S1x16_S100000x16_0_1 (broadcastInDim S1x16 ![1] bcast_S16_S1x16_1 b) (ix2 r q)
      = b (ix1 q) := by
  rw [broadcastInDim_apply _ bcast_S1x16_S100000x16_0_1 _ (ix2 r q) (ix2 (0 : Fin 1) q) (fun a => match a with
    | ⟨0, _⟩ => by show 0 = if (1 : Nat) = 1 then 0 else r.val; rw [if_pos rfl]
    | ⟨1, _⟩ => by show q.val = if (16 : Nat) = 1 then 0 else q.val; rw [if_neg (by decide)])]
  exact broadcastInDim_apply _ bcast_S16_S1x16_1 b (ix2 (0 : Fin 1) q) (ix1 q) (fun a => match a with
    | ⟨0, _⟩ => by show q.val = if (16 : Nat) = 1 then 0 else q.val; rw [if_neg (by decide)])

/-- The same for a vector of 64 entries. -/
theorem bias64_apply (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) := by
  rw [broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- A scalar word repeated over a 100000 × 16 array reads that word's value everywhere. -/
theorem splat16_apply (z : BitVec 32) (i : S100000x16.Idx) :
    broadcastInDim S100000x16 ![] bcast_S_S100000x16 (constant (F := Ideal) S_ .f32 z) i = Ideal.ofBits .f32 z := by
  rw [broadcastInDim_scalar_apply, constant_apply]

/-- A scalar word repeated over a 100000 × 64 array reads that word's value everywhere. -/
theorem splat64_apply (z : BitVec 32) (i : S100000x64.Idx) :
    broadcastInDim S100000x64 ![] bcast_S_S100000x64 (constant (F := Ideal) S_ .f32 z) i = Ideal.ofBits .f32 z := by
  rw [broadcastInDim_scalar_apply, constant_apply]

/-- The host's exponential at an entry is the extended-real exponential of the entry. -/
theorem hostExp_apply {s : Shape} (a : FVec Ideal s .f32) (i : s.Idx) : Host.exp a i = Ideal.exp (a i) := rfl

/-- The host's negation at an entry is the negative of the entry. -/
theorem hostNegf_apply {s : Shape} (a : FVec Ideal s .f32) (i : s.Idx) : Host.negf a i = -(a i) := rfl

/-! ## The three dense stages -/

/-- The first matrix product of the program is the plain product of the stages. -/
theorem product_eq (x : FVec Ideal S100000x512 .f32) (w : FVec Ideal S512x16 .f32) :
    Host.dotGeneral dot_S100000x512_S512x16_S100000x16_1_0_0_1_n_n none x w = product x w := by
  funext i
  obtain ⟨r, j, rfl⟩ : ∃ (r : Fin 100000) (j : Fin 16), i = ix2 r j := ⟨i 0, i 1, eq_ix2 i⟩
  exact (Cert.PlainDot.dotGeneral_ix2 _ rfl none x w r j).trans (product_apply x w r j).symm

/-- Bias along the columns, the rectifier against the zero word, and the second matrix product make the hidden
    layer: under the sum over the contracted coordinate, each factor is read at its entry. -/
theorem hidden_eq (g : FVec Ideal S100000x16 .f32) (b : FVec Ideal S16 .f32) (w : FVec Ideal S16x64 .f32) :
    Host.dotGeneral dot_S100000x16_S16x64_S100000x64_1_0_0_1_n_n none
      (maximumf (addf g (broadcastInDim S100000x16 ![0, 1] bcast_S1x16_S100000x16_0_1 (broadcastInDim S1x16 ![1] bcast_S16_S1x16_1 b)))
                (broadcastInDim S100000x16 ![] bcast_S_S100000x16 (constant (F := Ideal) S_ .f32 0x00000000#32))) w
      = hidden g (fun q => b (ix1 q)) w := by
  funext i
  obtain ⟨r, j, rfl⟩ : ∃ (r : Fin 100000) (j : Fin 64), i = ix2 r j := ⟨i 0, i 1, eq_ix2 i⟩
  rw [Cert.PlainDot.dotGeneral_ix2 dot_S100000x16_S16x64_S100000x64_1_0_0_1_n_n rfl none _ w r j, hidden_apply]
  refine Finset.sum_congr rfl fun q _ => ?_
  rw [maximumf_apply, addf_apply, bias16_apply, splat16_apply]

/-- Bias along the columns followed by `1 / (1 + exp (-z))`, with the word of one read as the real one, is the
    logistic function of the biased entry: that is how the logistic function is defined on the extended reals. -/
theorem output_eq (g : FVec Ideal S100000x64 .f32) (b : FVec Ideal S64 .f32) :
    Host.divf (broadcastInDim S100000x64 ![] bcast_S_S100000x64 (constant (F := Ideal) S_ .f32 0x3F800000#32))
      (addf (broadcastInDim S100000x64 ![] bcast_S_S100000x64 (constant (F := Ideal) S_ .f32 0x3F800000#32))
        (Host.exp (Host.negf (addf g (broadcastInDim S100000x64 ![0, 1] bcast_S1x64_S100000x64_0_1 (broadcastInDim S1x64 ![1] bcast_S64_S1x64_1 b))))))
      = output g (fun q => b (ix1 q)) := by
  funext i
  obtain ⟨r, j, rfl⟩ : ∃ (r : Fin 100000) (j : Fin 64), i = ix2 r j := ⟨i 0, i 1, eq_ix2 i⟩
  rw [output_apply, hostDivf_apply, addf_apply, hostExp_apply, hostNegf_apply, addf_apply, bias64_apply, splat64_apply,
    Ideal.ofBits_one_f32]
  rfl

/-! ## The composed term, over variables -/

/-- The program's composed term, with its eight arguments as variables, is the composition of the stages with the
    aggregation between them.  The dense pieces are rewritten from the outside in; what remains of the sparse pieces
    is, letter for letter, the aggregation's own definition. -/
theorem term_eq (x0 : FVec Ideal S100000x512 .f32) (x1 x2 : IVec S3200000 32) (x3 : FVec Ideal S3200000 .f32)
    (x4 : FVec Ideal S512x16 .f32) (x5 : FVec Ideal S16 .f32) (x6 : FVec Ideal S16x64 .f32) (x7 : FVec Ideal S64 .f32) :
    Host.divf (broadcastInDim S100000x64 ![] bcast_S_S100000x64 (constant (F := Ideal) S_ .f32 0x3F800000#32)) (addf (broadcastInDim S100000x64 ![] bcast_S_S100000x64 (constant (F := Ideal) S_ .f32 0x3F800000#32)) (Host.exp (Host.negf (addf (Host.scatterAdd scatter_S100000x64_S3200000x1_S3200000x64_1_0_0_1 (broadcastInDim S100000x64 ![] bcast_S_S100000x64 (constant (F := Ideal) S_ .f32 0x00000000#32)) (broadcastInDim S3200000x1 ![0] bcast_S3200000_S3200000x1_0 x1) (mulf (broadcastInDim S3200000x64 ![0, 1] bcast_S3200000x1_S3200000x64_0_1 (broadcastInDim S3200000x1 ![0] bcast_S3200000_S3200000x1_0 x3)) (Host.gather gather_S100000x64_S3200000x1_S3200000x64_1_0_n_n_0_1_164 (Host.dotGeneral dot_S100000x16_S16x64_S100000x64_1_0_0_1_n_n none (maximumf (addf (Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 x1) (mulf (broadcastInDim S3200000x16 ![0, 1] bcast_S3200000x1_S3200000x16_0_1 (broadcastInDim S3200000x1 ![0] bcast_S3200000_S3200000x1_0 x3)) (Host.gather gather_S100000x16_S3200000x1_S3200000x16_1_0_n_n_0_1_116 (Host.dotGeneral dot_S100000x512_S512x16_S100000x16_1_0_0_1_n_n none x0 x4) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2))))) (broadcastInDim S100000x16 ![0, 1] bcast_S1x16_S100000x16_0_1 (broadcastInDim S1x16 ![1] bcast_S16_S1x16_1 x5))) (broadcastInDim S100000x16 ![] bcast_S_S100000x16 (constant (F := Ideal) S_ .f32 0x00000000#32))) x6) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2))))) (broadcastInDim S100000x64 ![0, 1] bcast_S1x64_S100000x64_0_1 (broadcastInDim S1x64 ![1] bcast_S64_S1x64_1 x7))))))
      = output (aggR64 x1 x2 x3 (hidden (aggR16 x1 x2 x3 (product x0 x4)) (fun q => x5 (ix1 q)) x6)) (fun q => x7 (ix1 q)) := by
  rw [output_eq, hidden_eq, product_eq]
  rfl

/-! ## The run -/

/-- On every device, from any memory with zero counters, every weakly fair execution of the reference terminates with
    its result the composition of the stages applied to the launch contents of its arguments, and the arguments
    unchanged. -/
theorem run_layers (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
        = output (aggR64 (m ((c.tc : Thread nD τ).loc main_arg1)) (m ((c.tc : Thread nD τ).loc main_arg2)) (m ((c.tc : Thread nD τ).loc main_arg3))
            (hidden (aggR16 (m ((c.tc : Thread nD τ).loc main_arg1)) (m ((c.tc : Thread nD τ).loc main_arg2)) (m ((c.tc : Thread nD τ).loc main_arg3))
                (product (m ((c.tc : Thread nD τ).loc main_arg0)) (m ((c.tc : Thread nD τ).loc main_arg4))))
              (fun q => (m ((c.tc : Thread nD τ).loc main_arg5) : S16.Idx → EReal) (ix1 q)) (m ((c.tc : Thread nD τ).loc main_arg6))))
            (fun q => (m ((c.tc : Thread nD τ).loc main_arg7) : S64.Idx → EReal) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (term_eq _ _ _ _ _ _ _ _), (h c).2⟩)
    (Cert.ReferenceIdeal.Value.run (F := Ideal) m ρ)

end Cert.ReferenceIdeal.Layers

end
-- ==== Proof.lean ====
/-
  A two-layer graph network on 100000 nodes, tiled, against its plain reference: equal on the extended reals.

  Both programs compute  sigmoid (A (relu (A (x · W₁) + b₁) · W₂) + b₂)  where `A` is the sparse aggregation over an edge
  list: row `r` of `A d` is the sum over the edges into `r` of the edge weight times the source row of `d`.  The kernel
  program runs three tiled stages over blocks of 2000 rows — the product `x · W₁`; bias, rectifier and the product with
  `W₂`; bias and the logistic function — and applies `A` between them with the same whole-array operations the reference
  uses.  At the ideal instance a change of float format is the identity, a tiled product into a zero accumulator and a
  whole-array product are the same sums, and the logistic function IS `1 / (1 + exp (-z))`, which is how the reference
  spells its sigmoid; the 50 blocks of rows tile each array.  So each stage's array is one whole-array function of what
  the stage finds (`product`, `hidden`, `output`), the aggregation is carried as one unopened function on both sides, and
  both results are  output (A (hidden (A (product x W₁)) b₁ W₂)) b₂  of the arguments.  No law used needs the inputs to be
  finite, so the precondition is never opened.  The ideal pass rewrote nothing, so there is nothing to preserve.
-/
import proofs.«134429_j2396591751687_1_alg».proof.Defs
import proofs.«134429_j2396591751687_1_alg».proof.Proof.Gen.Kernel
import proofs.«134429_j2396591751687_1_alg».proof.Proof.Gen.Kernel.Skeleton
import proofs.«134429_j2396591751687_1_alg».proof.Proof.Gen.Kernel.Launch
import proofs.«134429_j2396591751687_1_alg».proof.Proof.Gen.Kernel.Points
import proofs.«134429_j2396591751687_1_alg».proof.Proof.Gen.Kernel.Frame
import proofs.«134429_j2396591751687_1_alg».proof.Proof.Gen.KernelIdeal
import proofs.«134429_j2396591751687_1_alg».proof.Proof.Gen.KernelIdeal.Skeleton
import proofs.«134429_j2396591751687_1_alg».proof.Proof.Gen.KernelIdeal.Launch
import proofs.«134429_j2396591751687_1_alg».proof.Proof.Gen.KernelIdeal.Points
import proofs.«134429_j2396591751687_1_alg».proof.Proof.Gen.KernelIdeal.Frame
import proofs.«134429_j2396591751687_1_alg».proof.Proof.Gen.ReferenceIdeal
import proofs.«134429_j2396591751687_1_alg».proof.Proof.Gen.Pre_finite_inputs
import proofs.«134429_j2396591751687_1_alg».proof.Proof.Gen.ReferenceIdeal.Run
import proofs.«134429_j2396591751687_1_alg».proof.Proof.Network
import proofs.«134429_j2396591751687_1_alg».proof.Proof.ReferenceLayers
import Idealize.ShloMosaic.Adequacy
import Idealize.ShloMosaic.Init

noncomputable section

namespace Cert.Proof

open Idealize.ShloMosaic Idealize.SL.Sem

/-- The word-level kernel program terminates without fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network's result of those
    arguments: the kernel's three stages with the aggregation between them, and the reference's layers, are the same
    composition; the aggregation is one function in both programs' spellings. -/
theorem algebraic : Cert.algebraic_KernelIdeal_ReferenceIdeal := by
  intro m ρ m' ρ' _ hagree
  refine ⟨fun c => Cert.KernelIdeal.Network.result m c, Cert.KernelIdeal.Network.run m ρ, ?_⟩
  refine (θ_run Cert.ReferenceIdeal.defs _ _).mono (fun _ h c => ⟨(h c).1.trans ?_, (h c).2⟩)
    (Cert.ReferenceIdeal.Layers.run_layers m' ρ')
  obtain ⟨a0, a1, a2, a3, a4, a5, a6, a7⟩ := hagree c
  rw [a0, a1, a2, a3, a4, a5, a6, a7, ← Cert.Aggregate.aggK16_eq_aggR16, ← Cert.Aggregate.aggK64_eq_aggR64]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
